-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128 : Shape := ⟨3, ![16, 256, 128]⟩
abbrev S_ : Shape := ⟨0, ![]⟩

class Facts : Prop where
  bcast_S_S16x256x128 : S_.BroadcastsInDim S16x256x128 (![] : Fin 0 → Fin S16x256x128.rank)
  reducesTo_S16x256x128_S_d0_1_2 : S16x256x128.ReducesTo [0, 1, 2] S_
  h_S_ : 0 < S_.numel

variable [Facts]

def fn {F : FTy → Type} [FloatOps F] (main_arg0 : FVec F S16x256x128 .f32) (main_arg1 : FVec F S16x256x128 .f32) : IVec S_ 1 :=
  let main_v0 : FVec F S16x256x128 .f32 := Host.absf main_arg0
  let main_cst : FVec F S_ .f32 := constant S_ .f32 0x7F800000#32
  let main_v1 : FVec F S16x256x128 .f32 := broadcastInDim S16x256x128 ![] bcast_S_S16x256x128 main_cst
  let main_v2 : IVec S16x256x128 1 := cmpf .olt main_v0 main_v1
  let main_c : IVec S_ 1 := constantI S_ 1 1#1
  let main_v3 : IVec S_ 1 := (fun x v => Host.reduce IntOp.andi x v reducesTo_S16x256x128_S_d0_1_2 h_S_) main_v2 main_c
  let main_v4 : FVec F S16x256x128 .f32 := Host.absf main_arg1
  let main_cst_0 : FVec F S_ .f32 := constant S_ .f32 0x7F800000#32
  let main_v5 : FVec F S16x256x128 .f32 := broadcastInDim S16x256x128 ![] bcast_S_S16x256x128 main_cst_0
  let main_v6 : IVec S16x256x128 1 := cmpf .olt main_v4 main_v5
  let main_c_1 : IVec S_ 1 := constantI S_ 1 1#1
  let main_v7 : IVec S_ 1 := (fun x v => Host.reduce IntOp.andi x v reducesTo_S16x256x128_S_d0_1_2 h_S_) main_v6 main_c_1
  let main_v8 : IVec S_ 1 := andi main_v3 main_v7
  main_v8
-- ==== Kernel.lean ====
abbrev S16x256x128 : Shape := ⟨3, ![16, 256, 128]⟩
abbrev S16x1x128 : Shape := ⟨3, ![16, 1, 128]⟩
abbrev S1x256x128 : Shape := ⟨3, ![1, 256, 128]⟩
abbrev S1x1x128 : Shape := ⟨3, ![1, 1, 128]⟩
abbrev S256x128 : Shape := ⟨2, ![256, 128]⟩
abbrev S1x64x128 : Shape := ⟨3, ![1, 64, 128]⟩
abbrev S64x128 : Shape := ⟨2, ![64, 128]⟩
abbrev S64x1x128 : Shape := ⟨3, ![64, 1, 128]⟩
abbrev S64x256x128 : Shape := ⟨3, ![64, 256, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S16x1x1 : Shape := ⟨3, ![16, 1, 1]⟩
abbrev S16 : Shape := ⟨1, ![16]⟩

abbrev nBuf : Space → Nat
  | .hbm => 5
  | .vmem => 6
  | .smem => 0
  | _ => 0

abbrev bufTy : (tb : Table) → Fin (tcTables nBuf tb) → BufTy
  | .hbm, ⟨0, _⟩ => ⟨S16x256x128, .f32⟩
  | .hbm, ⟨1, _⟩ => ⟨S16x256x128, .f32⟩
  | .hbm, ⟨2, _⟩ => ⟨S16x1x128, .f32⟩
  | .hbm, ⟨3, _⟩ => ⟨S16x1x1, .f32⟩
  | .hbm, ⟨4, _⟩ => ⟨S16, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x1x128, .f32⟩
  | .local _ .vmem, ⟨5, _⟩ => ⟨S1x1x128, .f32⟩
  | _, _ => ⟨S16x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c64_i32 : BitVec 32 := 64#32
  let v5 : BitVec 32 := Scalar.muli c0_i32 c64_i32
  v5
def k0_off1 (c0_i32 : BitVec 32) : Fin 3 → Nat :=
  let c0_5 : Index := 0#32
  let c64_i32 : BitVec 32 := 64#32
  let v5 : BitVec 32 := Scalar.muli c0_i32 c64_i32
  let v6 : BitVec 32 := v5
  let v7 : Index := Scalar.indexCast v6
  let c0_6 : Index := 0#32
  ![0, v7.toNat, 0]
def k0_mult2 : BitVec 32 :=
  let c1_i32 : BitVec 32 := 1#32
  let c64_i32_8 : BitVec 32 := 64#32
  let v18 : BitVec 32 := Scalar.muli c1_i32 c64_i32_8
  v18
def k0_mult3 : BitVec 32 :=
  let c2_i32 : BitVec 32 := 2#32
  let c64_i32_12 : BitVec 32 := 64#32
  let v31 : BitVec 32 := Scalar.muli c2_i32 c64_i32_12
  v31
def k0_mult4 : BitVec 32 :=
  let c3_i32 : BitVec 32 := 3#32
  let c64_i32_16 : BitVec 32 := 64#32
  let v44 : BitVec 32 := Scalar.muli c3_i32 c64_i32_16
  v44
def k0_mult5 : BitVec 32 :=
  let c0_i32_23 : BitVec 32 := 0#32
  let c64_i32_24 : BitVec 32 := 64#32
  let v62 : BitVec 32 := Scalar.muli c0_i32_23 c64_i32_24
  v62
def k0_mult6 : BitVec 32 :=
  let c1_i32_28 : BitVec 32 := 1#32
  let c64_i32_29 : BitVec 32 := 64#32
  let v75 : BitVec 32 := Scalar.muli c1_i32_28 c64_i32_29
  v75
def k0_mult7 : BitVec 32 :=
  let c2_i32_33 : BitVec 32 := 2#32
  let c64_i32_34 : BitVec 32 := 64#32
  let v88 : BitVec 32 := Scalar.muli c2_i32_33 c64_i32_34
  v88
def k0_mult8 : BitVec 32 :=
  let c3_i32_38 : BitVec 32 := 3#32
  let c64_i32_39 : BitVec 32 := 64#32
  let v101 : BitVec 32 := Scalar.muli c3_i32_38 c64_i32_39
  v101
def k0_mult9 : BitVec 32 :=
  let c0_i32_47 : BitVec 32 := 0#32
  let c64_i32_48 : BitVec 32 := 64#32
  let v119 : BitVec 32 := Scalar.muli c0_i32_47 c64_i32_48
  v119
def k0_mult10 : BitVec 32 :=
  let c1_i32_52 : BitVec 32 := 1#32
  let c64_i32_53 : BitVec 32 := 64#32
  let v132 : BitVec 32 := Scalar.muli c1_i32_52 c64_i32_53
  v132
def k0_mult11 : BitVec 32 :=
  let c2_i32_57 : BitVec 32 := 2#32
  let c64_i32_58 : BitVec 32 := 64#32
  let v145 : BitVec 32 := Scalar.muli c2_i32_57 c64_i32_58
  v145
def k0_mult12 : BitVec 32 :=
  let c3_i32_62 : BitVec 32 := 3#32
  let c64_i32_63 : BitVec 32 := 64#32
  let v158 : BitVec 32 := Scalar.muli c3_i32_62 c64_i32_63
  v158
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  h_S1x64x128 : 0 < S1x64x128.numel
  shapeCasts_S1x64x128_S64x128 : S1x64x128.ShapeCasts S64x128
  shapeCasts_S64x128_S64x1x128 : S64x128.ShapeCasts S64x1x128
  shapeCasts_S256x128_S1x256x128 : S256x128.ShapeCasts S1x256x128
  broadcasts_S64x1x128_S64x256x128 : S64x1x128.Broadcasts S64x256x128
  broadcasts_S1x256x128_S64x256x128 : S1x256x128.Broadcasts S64x256x128
  reduces_S64x256x128_S256x128 : S64x256x128.Reduces [0] S256x128
  reduces_S256x128_S128 : S256x128.Reduces [0] S128
  shapeCasts_S128_S1x128 : S128.ShapeCasts S1x128
  reduces_S1x128_S1 : S1x128.Reduces [1] S1
  shapeCasts_S1_S1x1 : S1.ShapeCasts S1x1
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S16x1x128_S16x1x1_0_0_0 : S16x1x128.Slices ![0, 0, 0] S16x1x1
  shapeCasts_S16x1x1_S16 : S16x1x1.ShapeCasts S16
  hrank0 : 0 < grid0.rank
  k0_mult1_dvd : 64 ∣ k0_mult1.toNat
  k0_off1_inb : ∀ (r : Fin 4), ∀ a, (k0_off1 (BitVec.ofNat 32 r.val)) a + S1x64x128.size a ≤ S1x256x128.size a
  k0_mult2_dvd : 64 ∣ k0_mult2.toNat
  k0_mult3_dvd : 64 ∣ k0_mult3.toNat
  k0_mult4_dvd : 64 ∣ k0_mult4.toNat
  k0_mult5_dvd : 64 ∣ k0_mult5.toNat
  k0_mult6_dvd : 64 ∣ k0_mult6.toNat
  k0_mult7_dvd : 64 ∣ k0_mult7.toNat
  k0_mult8_dvd : 64 ∣ k0_mult8.toNat
  k0_mult9_dvd : 64 ∣ k0_mult9.toNat
  k0_mult10_dvd : 64 ∣ k0_mult10.toNat
  k0_mult11_dvd : 64 ∣ k0_mult11.toNat
  k0_mult12_dvd : 64 ∣ k0_mult12.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S16x256x128.size a
  hwx0_0 : ∀ i : grid0.Coords, EltTy.bits .f32 = 32 ∨ (Rect.block (s := S16x256x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S16x256x128.size a
  hwx0_1 : ∀ i : grid0.Coords, EltTy.bits .f32 = 32 ∨ (Rect.block (s := S16x256x128) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x128 : Shape := ⟨3, ![16, 256, 128]⟩
abbrev S16x256x1x128 : Shape := ⟨4, ![16, 256, 1, 128]⟩
abbrev S16x1x256x128 : Shape := ⟨4, ![16, 1, 256, 128]⟩
abbrev S16x256x256x128 : Shape := ⟨4, ![16, 256, 256, 128]⟩
abbrev S_ : Shape := ⟨0, ![]⟩
abbrev S16x256x256 : Shape := ⟨3, ![16, 256, 256]⟩
abbrev S16 : Shape := ⟨1, ![16]⟩

abbrev nBuf : Space → Nat
  | .hbm => 46
  | .vmem => 0
  | .smem => 0
  | _ => 0

abbrev bufTy : (tb : Table) → Fin (tcTables nBuf tb) → BufTy
  | .hbm, ⟨0, _⟩ => ⟨S16x256x128, .f32⟩
  | .hbm, ⟨1, _⟩ => ⟨S16x256x128, .f32⟩
  | .hbm, ⟨2, _⟩ => ⟨S16x256x1x128, .f32⟩
  | .hbm, ⟨3, _⟩ => ⟨S16x1x256x128, .f32⟩
  | .hbm, ⟨4, _⟩ => ⟨S16x256x256x128, .f32⟩
  | .hbm, ⟨5, _⟩ => ⟨S16x256x256x128, .f32⟩
  | .hbm, ⟨6, _⟩ => ⟨S16x256x256x128, .f32⟩
  | .hbm, ⟨7, _⟩ => ⟨S16x256x256x128, .f32⟩
  | .hbm, ⟨8, _⟩ => ⟨S_, .f32⟩
  | .hbm, ⟨9, _⟩ => ⟨S16x256x256, .f32⟩
  | .hbm, ⟨10, _⟩ => ⟨S_, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16x256x1x128, .f32⟩
  | .hbm, ⟨16, _⟩ => ⟨S16x1x256x128, .f32⟩
  | .hbm, ⟨17, _⟩ => ⟨S16x256x256x128, .f32⟩
  | .hbm, ⟨18, _⟩ => ⟨S16x256x256x128, .f32⟩
  | .hbm, ⟨19, _⟩ => ⟨S16x256x256x128, .f32⟩
  | .hbm, ⟨20, _⟩ => ⟨S16x256x256x128, .f32⟩
  | .hbm, ⟨21, _⟩ => ⟨S_, .f32⟩
  | .hbm, ⟨22, _⟩ => ⟨S16x256x256, .f32⟩
  | .hbm, ⟨23, _⟩ => ⟨S_, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S16x256x1x128, .f32⟩
  | .hbm, ⟨29, _⟩ => ⟨S16x1x256x128, .f32⟩
  | .hbm, ⟨30, _⟩ => ⟨S16x256x256x128, .f32⟩
  | .hbm, ⟨31, _⟩ => ⟨S16x256x256x128, .f32⟩
  | .hbm, ⟨32, _⟩ => ⟨S16x256x256x128, .f32⟩
  | .hbm, ⟨33, _⟩ => ⟨S16x256x256x128, .f32⟩
  | .hbm, ⟨34, _⟩ => ⟨S_, .f32⟩
  | .hbm, ⟨35, _⟩ => ⟨S16x256x256, .f32⟩
  | .hbm, ⟨36, _⟩ => ⟨S_, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S16, .f32⟩
  | _, _ => ⟨S16x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S16x256x128_S16x256x1x128_0_1_3 : S16x256x128.BroadcastsInDim S16x256x1x128 (![0, 1, 3] : Fin 3 → Fin S16x256x1x128.rank)
  bcast_S16x256x128_S16x1x256x128_0_2_3 : S16x256x128.BroadcastsInDim S16x1x256x128 (![0, 2, 3] : Fin 3 → Fin S16x1x256x128.rank)
  bcast_S16x256x1x128_S16x256x256x128_0_1_2_3 : S16x256x1x128.BroadcastsInDim S16x256x256x128 (![0, 1, 2, 3] : Fin 4 → Fin S16x256x256x128.rank)
  bcast_S16x1x256x128_S16x256x256x128_0_1_2_3 : S16x1x256x128.BroadcastsInDim S16x256x256x128 (![0, 1, 2, 3] : Fin 4 → Fin S16x256x256x128.rank)
  reducesTo_S16x256x256x128_S16x256x256_d3 : S16x256x256x128.ReducesTo [3] S16x256x256
  h_S_ : 0 < S_.numel
  reducesTo_S16x256x256_S16_d1_2 : S16x256x256.ReducesTo [1, 2] S16
  bcast_S_S16 : S_.BroadcastsInDim S16 (![] : Fin 0 → Fin S16.rank)

variable [Facts₀]

class Facts : Prop extends Facts₀ where

variable [Facts]
-- ==== Proof.EnergySpec.lean ====
/-
  The energy distance of two clouds of 256 points in 128 coordinates, as one number on the extended reals, and the two
  ways of adding it up that the certificate joins.

  For clouds `a`, `b` the pairwise L1 sum is `pairSum a b = ∑ᵢ ∑ⱼ ∑_d |aᵢ_d - bⱼ_d|` (with `|x| = max x (-x)`), and
  the energy distance is `pairSum a b · s - h · (pairSum b b · s + pairSum a a · s)` where `s` is the number the word
  `0x37800000` denotes (2⁻¹⁶ = 1/(256·256)) and `h` the one `0x3F000000` denotes (1/2); the two words are never
  evaluated: they are the same on both sides.

  * `tiledPairSum_eq`: summing first over the 64 rows of each of four row tiles of `a`, adding the four tiles up from
    zero, then summing over the points of `b` and last over the coordinate, is the same number: the extended reals are
    a commutative monoid under addition, so no finiteness is asked.
  * `div_eq_mul_scale`: a quotient by the real 65536 (the word `0x47800000`) is the product with `s`, at the
    infinities too.
-/
import Idealize.ShloMosaic.PureOps.Ideal
import Idealize.ShloMosaic.PureOps.Ideal.Laws
import Idealize.ShloMosaic.Lib.ValueIdx

noncomputable section

open scoped BigOperators

namespace Cert.EnergySpec

open Idealize.ShloMosaic Idealize.ShloMosaic.ValueIdx

/-- A cloud: 256 points, 128 coordinates each, on the extended reals. -/
abbrev Cloud : Type := Fin 256 → Fin 128 → EReal

/-- The absolute difference of two coordinates, as both programs compute it: `max (x - y) (-(x - y))`. -/
def absDiff (x y : EReal) : EReal := max (x - y) (-(x - y))

/-- The sum of the L1 distances of all pairs (point of `a`, point of `b`). -/
def pairSum (a b : Cloud) : EReal := ∑ i : Fin 256, ∑ j : Fin 256, ∑ d : Fin 128, absDiff (a i d) (b j d)

/-- The factor 1/(256·256), as the word both programs spell (the reference through its reciprocal). -/
def scale : EReal := Ideal.ofBits .f32 0x37800000#32
/-- The factor 1/2, as the word both programs spell. -/
def half : EReal := Ideal.ofBits .f32 0x3F000000#32

/-- The energy distance: the mean cross distance less half the sum of the two mean self distances. -/
def energy (a b : Cloud) : EReal := pairSum a b * scale - half * (pairSum b b * scale + pairSum a a * scale)

/-- Batch `g` of a [16,256,128] argument array, as a cloud. -/
def cloud (x : (⟨3, ![16, 256, 128]⟩ : Shape).Idx → EReal) (g : Fin 16) : Cloud := fun i d => x (ix3 g i d)

/-- The energy distances of the sixteen batches of two argument arrays: the result both programs are to end with. -/
def energies (x0 x1 : (⟨3, ![16, 256, 128]⟩ : Shape).Idx → EReal) : (⟨1, ![16]⟩ : Shape).Idx → EReal :=
  fun q => energy (cloud x0 (q 0)) (cloud x1 (q 0))

/-! ## Four row tiles of 64 -/

/-- Row `r` of tile `k`: row `64 k + r` of the cloud. -/
def tileRow (k : Fin 4) (r : Fin 64) : Fin 256 := ⟨r.val + 64 * k.val, by have := k.isLt; have := r.isLt; omega⟩

theorem tileRow_val (k : Fin 4) (r : Fin 64) : (tileRow k r).val = 64 * k.val + r.val := by
  show r.val + 64 * k.val = _; omega

/-- A sum over the 256 rows is the sum over the four tiles of the sums over each tile's 64 rows. -/
theorem sum_tiles {M : Type*} [AddCommMonoid M] (f : Fin 256 → M) :
    ∑ i, f i = ∑ k : Fin 4, ∑ r : Fin 64, f (tileRow k r) := by
  rw [← Equiv.sum_comp (finProdFinEquiv : Fin 4 × Fin 64 ≃ Fin 256) f, Fintype.sum_prod_type]
  rfl

/-- One tile's contribution at a point `j` of `b` and a coordinate `d`: the sum over the tile's rows. -/
def tileSum (a b : Cloud) (k : Fin 4) (j : Fin 256) (d : Fin 128) : EReal :=
  ∑ r : Fin 64, absDiff (a (tileRow k r) d) (b j d)

/-- The pairwise sum as the kernel adds it up: per (point of `b`, coordinate) the four tiles added from zero in order,
    then the sum over the points of `b`, then over the coordinates. -/
def tiledPairSum (a b : Cloud) : EReal :=
  ∑ d : Fin 128, ∑ j : Fin 256, ((((0 + tileSum a b 0 j d) + tileSum a b 1 j d) + tileSum a b 2 j d) + tileSum a b 3 j d)

/-- The two orders give one number. -/
theorem tiledPairSum_eq (a b : Cloud) : tiledPairSum a b = pairSum a b := by
  unfold tiledPairSum pairSum
  calc ∑ d : Fin 128, ∑ j : Fin 256, ((((0 + tileSum a b 0 j d) + tileSum a b 1 j d) + tileSum a b 2 j d) + tileSum a b 3 j d)
      = ∑ d : Fin 128, ∑ j : Fin 256, ∑ i : Fin 256, absDiff (a i d) (b j d) :=
        Finset.sum_congr rfl fun d _ => Finset.sum_congr rfl fun j _ => by
          rw [sum_tiles (fun i => absDiff (a i d) (b j d)), Fin.sum_univ_four, zero_add]; rfl
    _ = ∑ d : Fin 128, ∑ i : Fin 256, ∑ j : Fin 256, absDiff (a i d) (b j d) :=
        Finset.sum_congr rfl fun d _ => Finset.sum_comm
    _ = ∑ i : Fin 256, ∑ d : Fin 128, ∑ j : Fin 256, absDiff (a i d) (b j d) := Finset.sum_comm
    _ = ∑ i : Fin 256, ∑ j : Fin 256, ∑ d : Fin 128, absDiff (a i d) (b j d) :=
        Finset.sum_congr rfl fun i _ => Finset.sum_comm

/-- The energy distance with each pairwise sum added up the kernel's way. -/
theorem tiled_energy_eq (a b : Cloud) :
    tiledPairSum a b * scale - half * (tiledPairSum b b * scale + tiledPairSum a a * scale) = energy a b := by
  rw [tiledPairSum_eq, tiledPairSum_eq, tiledPairSum_eq]; rfl

/-! ## The words -/

/-- The word `0x47800000` denotes the real 65536. -/
theorem ofBits_65536 : Ideal.ofBits .f32 0x47800000#32 = ((65536 : ℝ) : EReal) := by
  simp [Ideal.ofBits, Ideal.ieee, -EReal.coe_mul]; norm_num

/-- The word `0x37800000` denotes its reciprocal. -/
theorem scale_eq : scale = ((1 / 65536 : ℝ) : EReal) := by
  unfold scale
  simp [Ideal.ofBits, Ideal.ieee, -EReal.coe_mul]; norm_num

/-- A quotient by 65536 is the product with the scale, on every extended real. -/
theorem div_eq_mul_scale (x : EReal) : Ideal.div x (Ideal.ofBits .f32 0x47800000#32) = x * scale := by
  rw [ofBits_65536, scale_eq]
  exact Ideal.div_coe (by norm_num) x

/-! ## A sum over the indices of a rank-3 shape -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.EnergySpec

end
-- ==== Proof.EnergyRef.lean ====
/-
  The reference, read index by index on the extended reals: at batch `g` its result is the energy distance
  (EnergySpec) of the two clouds `x1[g]`, `x2[g]`.

  Each of its three means is a sum over the coordinate axis of `|aᵢ_d - bⱼ_d|` from zero, then a sum over BOTH point
  axes from zero, then a quotient by 65536. The generated read lemmas give every stage but the two-axis sum; that one
  is read here (`sum_points`): the indices of a [16,256,256] array that drop to batch `g` are the pairs `(g, i, j)`,
  so the sum over them is the double sum over `i` and `j`.
-/
import proofs.«110861_j30021821399466_2_alg».proof.Proof.Gen.ReferenceIdeal.Read
import proofs.«110861_j30021821399466_2_alg».proof.Proof.EnergySpec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.EnergySpec

/-- The host's sum over the two point axes of a [16,256,256] array, at batch `q`: the initial value plus the double sum
    over the pairs of points of that batch. -/
theorem sum_points (x : S16x256x256.Idx → EReal) (init : EReal) (g : Fin 16) :
    Ideal.hostReduceAdd reducesTo_S16x256x256_S16_d1_2 x init (ix1 g) = init + ∑ i : Fin 256, ∑ j : Fin 256, x (ix3 g i j) := by
  unfold Ideal.hostReduceAdd
  refine congrArg (init + ·) ?_
  rw [Finset.sum_filter, sum_idx3, Finset.sum_eq_single g]
  · refine Finset.sum_congr rfl fun i _ => Finset.sum_congr rfl fun j _ => if_pos ?_
    funext c
    match c with
    | ⟨0, _⟩ => rfl
  · intro g' _ hg
    refine Finset.sum_eq_zero fun i _ => Finset.sum_eq_zero fun j _ => if_neg fun h => hg ?_
    have h0 : reducesTo_S16x256x256_S16_d1_2.drop (ix3 g' i j) 0 = (ix1 g : S16.Idx) 0 := congrFun h 0
    exact h0
  · intro h
    exact absurd (Finset.mem_univ _) h

/-- One mean's double reduction: if the [16,256,256,128] array holds `|a[g,i,d] - b[g,j,d]|` at `(g, i, j, d)`, its sum over
    the coordinate axis and then over both point axes, each from zero, is the pairwise sum of the two clouds of the batch. -/
theorem pair_total (y : S16x256x256x128.Idx → EReal) (a b : S16x256x128.Idx → EReal)
    (hy : ∀ g i j d, y (ix4 g i j d) = absDiff (a (ix3 g i d)) (b (ix3 g j d))) (z z' : EReal) (hz : z = 0) (hz' : z' = 0)
    (g : Fin 16) :
    Ideal.hostReduceAdd reducesTo_S16x256x256_S16_d1_2 (Ideal.hostReduceAdd reducesTo_S16x256x256x128_S16x256x256_d3 y z) z' (ix1 g)
      = pairSum (cloud a g) (cloud b g) := by
  rw [sum_points, hz', zero_add]
  unfold pairSum
  refine Finset.sum_congr rfl fun i _ => Finset.sum_congr rfl fun j _ => ?_
  rw [Ideal.hostReduceAdd_single reducesTo_S16x256x256x128_S16x256x256_d3 (by decide), hz, zero_add]
  refine Finset.sum_congr rfl fun (d : Fin 128) _ => ?_
  show y _ = absDiff (a (ix3 g i d)) (b (ix3 g j d))
  rw [← hy]
  exact congrArg y (funext fun c => Fin.ext (by match c with | ⟨0, _⟩ => rfl | ⟨1, _⟩ => rfl | ⟨2, _⟩ => rfl | ⟨3, _⟩ => rfl))

theorem zero_word : (FloatOps.ofBits (F := Ideal) .f32 0x00000000#32 : EReal) = 0 := Ideal.ofBits_zero_f32

/-! ## The three absolute-difference arrays at an index -/

theorem cross_abs (x0 x1 : S16x256x128.Idx → EReal) (g : Fin 16) (i j : Fin 256) (d : Fin 128) :
    val_main_v5 (F := Ideal) x0 x1 (ix4 g i j d) = absDiff (x0 (ix3 g i d)) (x1 (ix3 g j d)) := by
  rw [val_main_v5_apply, val_main_v4_apply, val_main_v2_apply, val_main_v0_apply, val_main_v3_apply, val_main_v1_apply]
  have e0 : idx_main_v0 (idx_main_v2 (ix4 g i j d)) = ix3 g i d :=
    funext fun c => by match c with | ⟨0, _⟩ => rfl | ⟨1, _⟩ => rfl | ⟨2, _⟩ => rfl
  have e1 : idx_main_v1 (idx_main_v3 (ix4 g i j d)) = ix3 g j d :=
    funext fun c => by match c with | ⟨0, _⟩ => rfl | ⟨1, _⟩ => rfl | ⟨2, _⟩ => rfl
  rw [e0, e1]; rfl

theorem self2_abs (x1 : S16x256x128.Idx → EReal) (g : Fin 16) (i j : Fin 256) (d : Fin 128) :
    val_main_v15 (F := Ideal) x1 (ix4 g i j d) = absDiff (x1 (ix3 g i d)) (x1 (ix3 g j d)) := by
  rw [val_main_v15_apply, val_main_v14_apply, val_main_v12_apply, val_main_v10_apply, val_main_v13_apply, val_main_v11_apply]
  have e0 : idx_main_v10 (idx_main_v12 (ix4 g i j d)) = ix3 g i d :=
    funext fun c => by match c with | ⟨0, _⟩ => rfl | ⟨1, _⟩ => rfl | ⟨2, _⟩ => rfl
  have e1 : idx_main_v11 (idx_main_v13 (ix4 g i j d)) = ix3 g j d :=
    funext fun c => by match c with | ⟨0, _⟩ => rfl | ⟨1, _⟩ => rfl | ⟨2, _⟩ => rfl
  rw [e0, e1]; rfl

theorem self1_abs (x0 : S16x256x128.Idx → EReal) (g : Fin 16) (i j : Fin 256) (d : Fin 128) :
    val_main_v25 (F := Ideal) x0 (ix4 g i j d) = absDiff (x0 (ix3 g i d)) (x0 (ix3 g j d)) := by
  rw [val_main_v25_apply, val_main_v24_apply, val_main_v22_apply, val_main_v20_apply, val_main_v23_apply, val_main_v21_apply]
  have e0 : idx_main_v20 (idx_main_v22 (ix4 g i j d)) = ix3 g i d :=
    funext fun c => by match c with | ⟨0, _⟩ => rfl | ⟨1, _⟩ => rfl | ⟨2, _⟩ => rfl
  have e1 : idx_main_v21 (idx_main_v23 (ix4 g i j d)) = ix3 g j d :=
    funext fun c => by match c with | ⟨0, _⟩ => rfl | ⟨1, _⟩ => rfl | ⟨2, _⟩ => rfl
  rw [e0, e1]; rfl

/-! ## The three totals -/

theorem cross_total (x0 x1 : S16x256x128.Idx → EReal) (g : Fin 16) :
    val_main_v7 (F := Ideal) x0 x1 (ix1 g) = pairSum (cloud x0 g) (cloud x1 g) := by
  unfold val_main_v7 val_main_v6
  simp only [Host.reduceAdd, Ideal.hostReduceAdd_def]
  exact pair_total _ x0 x1 (cross_abs x0 x1) _ _ zero_word zero_word g

theorem self2_total (x1 : S16x256x128.Idx → EReal) (g : Fin 16) :
    val_main_v17 (F := Ideal) x1 (ix1 g) = pairSum (cloud x1 g) (cloud x1 g) := by
  unfold val_main_v17 val_main_v16
  simp only [Host.reduceAdd, Ideal.hostReduceAdd_def]
  exact pair_total _ x1 x1 (self2_abs x1) _ _ zero_word zero_word g

theorem self1_total (x0 : S16x256x128.Idx → EReal) (g : Fin 16) :
    val_main_v27 (F := Ideal) x0 (ix1 g) = pairSum (cloud x0 g) (cloud x0 g) := by
  unfold val_main_v27 val_main_v26
  simp only [Host.reduceAdd, Ideal.hostReduceAdd_def]
  exact pair_total _ x0 x0 (self1_abs x0) _ _ zero_word zero_word g

/-! ## The result -/

/-- The reference's result at batch `g` is the energy distance of that batch's two clouds: each mean's quotient by 65536 is
    the product with the scale. -/
theorem result_eq (x0 x1 : S16x256x128.Idx → EReal) : val_main_v33 (F := Ideal) x0 x1 = energies x0 x1 := by
  funext q
  obtain ⟨g, rfl⟩ : ∃ g : Fin 16, q = ix1 g := ⟨q 0, eq_ix1 q⟩
  rw [val_main_v33_apply, val_main_v9_apply, val_main_v32_apply, val_main_v30_apply, val_main_v19_apply,
    val_main_v29_apply, val_main_v8_apply, val_main_v18_apply, val_main_v28_apply, val_main_v31_apply,
    cross_total, self2_total, self1_total]
  simp only [val_main_cst_1_apply, val_main_cst_4_apply, val_main_cst_7_apply, val_main_cst_8_apply,
    Ideal.hostDivf_def, Ideal.subf_def, Ideal.mulf_def, Ideal.addf_def, Ideal.ofBits_def, div_eq_mul_scale]
  rfl

end Cert.ReferenceIdeal.RefValue

end
-- ==== Proof.EnergyBody.lean ====
/-
  What the kernel's body leaves in its output block, at one grid point (one batch).

  The body loads the batch's two clouds whole (`a` from the first input block, `b` from the second) and, again, each of
  them in four row tiles of 64. For a tiled cloud `t` and a whole cloud `w` it forms, tile by tile, the [64,256,128]
  array `|t[r,d] - w[j,d]|`, sums it over the tile's rows `r`, adds the four tiles into an accumulator that starts at
  zero, then sums the accumulator over the points `j` and last over the coordinates `d`: one number, `pairTotal`. It
  does so three times — (a tiled, b whole), (b tiled, b whole), (a tiled, a whole) —, combines the three numbers as
  `cross · s - h · (same₁ · s + same₂ · s)` and broadcasts the result over the 128 lanes of the output block.

  First the body's one store is read back as that term over the loads (any float instance). Then, on the extended
  reals, the term is read at a lane: every lane holds the energy distance (EnergySpec) of the two clouds.
-/
import proofs.«110861_j30021821399466_2_alg».proof.Proof.Gen.KernelIdeal.Frame
import proofs.«110861_j30021821399466_2_alg».proof.Proof.EnergySpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.BodyValue

open Cert.KernelIdeal Cert.KernelIdeal.Gen Idealize.ShloMosaic Idealize.ShloMosaic.TcCoe Idealize.ShloMosaic.ValueIdx
open Idealize.SL.Sem Idealize.ShloMosaic.Tactic Cert.EnergySpec

/-! ## The body's arithmetic, named piece by piece (any float instance) -/

section Terms

variable {F : FTy → Type} [FloatOps F]

/-- A loaded row tile [1,64,128] as the column [64,1,128] the body broadcasts along the points of the other cloud. -/
def rows (ch : Vec F S1x64x128 .f32) : FVec F S64x1x128 .f32 :=
  shapeCast S64x1x128 (shapeCast S64x128 ch shapeCasts_S1x64x128_S64x128) shapeCasts_S64x128_S64x1x128

/-- A loaded cloud [1,256,128] as the matrix [256,128]. -/
def whole (x : Vec F S1x256x128 .f32) : FVec F S256x128 .f32 := shapeCast S256x128 x shapeCasts_S1x256x128_S256x128

/-- The matrix [256,128] as the row [1,256,128] the body broadcasts along a tile's rows. -/
def pts (w : FVec F S256x128 .f32) : FVec F S1x256x128 .f32 := shapeCast S1x256x128 w shapeCasts_S256x128_S1x256x128

/-- One tile's contribution: `|t[r,d] - w[j,d]|` summed over the tile's 64 rows `r`, a [256,128] matrix in `(j, d)`. -/
def tile (t : FVec F S64x1x128 .f32) (w : FVec F S1x256x128 .f32) : FVec F S256x128 .f32 :=
  multiReduction .add [0] S256x128
    (absf (subf (broadcastTo S64x256x128 t broadcasts_S64x1x128_S64x256x128)
      (broadcastTo S64x256x128 w broadcasts_S1x256x128_S64x256x128)))
    0x00000000#32 reduces_S64x256x128_S256x128 (.inl rfl) rfl

/-- The accumulator's start: the zero matrix. -/
def zeroAcc : FVec F S256x128 .f32 := broadcast S256x128 (Scalar.ofBits .f32 0x00000000#32)

/-- An accumulator summed over the points, then over the coordinates: a [1,1] matrix. -/
def total (acc : FVec F S256x128 .f32) : FVec F S1x1 .f32 :=
  shapeCast S1x1
    (multiReduction .add [1] S1
      (shapeCast S1x128 (multiReduction .add [0] S128 acc 0x00000000#32 reduces_S256x128_S128 (.inl rfl) rfl) shapeCasts_S128_S1x128)
      0x00000000#32 reduces_S1x128_S1 (.inl rfl) rfl)
    shapeCasts_S1_S1x1

/-- The pairwise sum of a cloud given by its four row tiles against a whole cloud `w`. -/
def pairTotal (w : FVec F S256x128 .f32) (c0 c1 c2 c3 : Vec F S1x64x128 .f32) : FVec F S1x1 .f32 :=
  total (addf (addf (addf (addf zeroAcc (tile (rows c0) (pts w))) (tile (rows c1) (pts w))) (tile (rows c2) (pts w)))
    (tile (rows c3) (pts w)))

/-- The three totals combined and broadcast over the output block's 128 lanes. -/
def combine (cross same1 same2 : FVec F S1x1 .f32) : FVec F S1x1x128 .f32 :=
  shapeCast S1x1x128
    (broadcastTo S1x128
      (shapeCast S1x1
        (subf (mulf cross (broadcast S1x1 (Scalar.ofBits .f32 0x37800000#32)))
          (mulf (broadcast S1x1 (Scalar.ofBits .f32 0x3F000000#32))
            (addf (mulf same1 (broadcast S1x1 (Scalar.ofBits .f32 0x37800000#32)))
              (mulf same2 (broadcast S1x1 (Scalar.ofBits .f32 0x37800000#32))))))
        shapeCasts_S1x1_S1x1)
      broadcasts_S1x1_S1x128)
    shapeCasts_S1x128_S1x1x128

/-- The stored block, from the two whole loads and the eight tile loads. -/
def blockOf (a b : Vec F S1x256x128 .f32) (a0 a1 a2 a3 b0 b1 b2 b3 : Vec F S1x64x128 .f32) : FVec F S1x1x128 .f32 :=
  combine (pairTotal (whole b) a0 a1 a2 a3) (pairTotal (whole b) b0 b1 b2 b3) (pairTotal (whole a) a0 a1 a2 a3)

/-- The printed payloads, composed as the body composes them, are that term. -/
theorem pay_bridge (a b : Vec F S1x256x128 .f32) (a0 a1 a2 a3 b0 b1 b2 b3 : Vec F S1x64x128 .f32) :
    k0_pay1 (k0_pay7 (k0_pay3 b) (k0_pay4 b a0 a1) (k0_pay5 a2) (k0_pay6 b) a3)
        (k0_pay9 (k0_pay3 b) (k0_pay8 (k0_pay3 b) b0) b1 b2 b3)
        (k0_pay11 (k0_pay2 a) (k0_pay10 (F := F)) a0 a1 a2) (k0_pay12 a3) (k0_pay13 (k0_pay2 a))
      = blockOf a b a0 a1 a2 a3 b0 b1 b2 b3 := rfl

theorem hz : (![0, 0, 0] : Fin 3 → Nat) = fun _ => 0 := funext fun a => by fin_cases a <;> rfl

/-- What the body leaves in the output's staging buffer: its one covering store's payload, over the loads of the two
    input buffers — each whole, and each in four row tiles at rows 0, 64, 128, 192. -/
theorem out_eq (c : Dev nD) (i : grid0.Coords) (a1 : Memref sig .tc .vmem S1x256x128 .f32) (h1 : a1.IsWhole)
    (a2 : Memref sig .tc .vmem S1x256x128 .f32) (h2 : a2.IsWhole) (a3 : Memref sig .tc .vmem S1x1x128 .f32) (h3 : a3.IsWhole)
    (x0 x1 : Vec F S1x256x128 .f32)
    (i0 : ∀ a, (![0, 0, 0] : Fin 3 → Nat) a + S1x64x128.size a ≤ S1x256x128.size a)
    (i1 : ∀ a, (![0, 64, 0] : Fin 3 → Nat) a + S1x64x128.size a ≤ S1x256x128.size a)
    (i2 : ∀ a, (![0, 128, 0] : Fin 3 → Nat) a + S1x64x128.size a ≤ S1x256x128.size a)
    (i3 : ∀ a, (![0, 192, 0] : Fin 3 → Nat) a + S1x64x128.size a ≤ S1x256x128.size a) :
    out0_A_2 c i a1 h1 a2 h2 a3 h3 x0 x1
      = blockOf x0 x1
          (View.ld x0 (Rect.unit (s := S1x256x128) ![0, 0, 0] S1x64x128.size i0))
          (View.ld x0 (Rect.unit (s := S1x256x128) ![0, 64, 0] S1x64x128.size i1))
          (View.ld x0 (Rect.unit (s := S1x256x128) ![0, 128, 0] S1x64x128.size i2))
          (View.ld x0 (Rect.unit (s := S1x256x128) ![0, 192, 0] S1x64x128.size i3))
          (View.ld x1 (Rect.unit (s := S1x256x128) ![0, 0, 0] S1x64x128.size i0))
          (View.ld x1 (Rect.unit (s := S1x256x128) ![0, 64, 0] S1x64x128.size i1))
          (View.ld x1 (Rect.unit (s := S1x256x128) ![0, 128, 0] S1x64x128.size i2))
          (View.ld x1 (Rect.unit (s := S1x256x128) ![0, 192, 0] S1x64x128.size i3)) := by
  unfold out0_A_2
  rw [View.read_writes_eq_canon _ _ _ (cover0_A_2 c i a1 h1 a2 h2 a3 h3 x0 x1)]
  unfold kernelRun0_A
  dsimp only
  sl_unfold_words
  rw [View.canon_unit_zero hz]
  simp only [View.readAt_eq_ld, h1.read_unread, h2.read_unread, View.ld_unit_zero (S := S1x256x128) hz]
  exact pay_bridge x0 x1 _ _ _ _ _ _ _ _

end Terms

/-! ## The term read on the extended reals -/

theorem rows_apply (ch : FVec Ideal S1x64x128 .f32) (r : Fin 64) (d : Fin 128) :
    rows (F := Ideal) ch (ix3 r (0 : Fin 1) d) = ch (ix3 (0 : Fin 1) r d) := by
  unfold rows
  refine (shapeCast_apply _ shapeCasts_S64x128_S64x1x128 (ix3 r (0 : Fin 1) d) (ix2 r d) ?_).trans
    (shapeCast_1ab_ab_apply ch shapeCasts_S1x64x128_S64x128 r d)
  rw [Shape.rowMajor_val_two, Shape.rowMajor_val_three]
  show r.val * 128 + d.val = (r.val * 1 + 0) * 128 + d.val
  omega

theorem pts_apply (w : FVec Ideal S256x128 .f32) (j : Fin 256) (d : Fin 128) :
    pts (F := Ideal) w (ix3 (0 : Fin 1) j d) = w (ix2 j d) :=
  shapeCast_ab_1ab_apply w shapeCasts_S256x128_S1x256x128 0 j d

theorem whole_apply (x : FVec Ideal S1x256x128 .f32) (j : Fin 256) (d : Fin 128) :
    whole (F := Ideal) x (ix2 j d) = x (ix3 (0 : Fin 1) j d) :=
  shapeCast_1ab_ab_apply x shapeCasts_S1x256x128_S256x128 j d

/-- A tile's contribution at `(j, d)`: the sum over the tile's rows of the absolute differences. -/
theorem tile_apply (t : FVec Ideal S64x1x128 .f32) (w : FVec Ideal S1x256x128 .f32) (j : Fin 256) (d : Fin 128) :
    tile (F := Ideal) t w (ix2 j d) = ∑ r : Fin 64, absDiff (t (ix3 r (0 : Fin 1) d)) (w (ix3 (0 : Fin 1) j d)) := by
  unfold tile
  refine (Ideal.multiReduction_add_single _ _ reduces_S64x256x128_S256x128 _ _ (ix2 j d)).trans ?_
  refine Finset.sum_congr rfl fun (r : Fin 64) _ => ?_
  have e : reduces_S64x256x128_S256x128.lift (ix2 j d) r = ix3 r j d :=
    funext fun c => Fin.ext (by match c with | ⟨0, _⟩ => rfl | ⟨1, _⟩ => rfl | ⟨2, _⟩ => rfl)
  rw [e]
  show absDiff (broadcastTo S64x256x128 t broadcasts_S64x1x128_S64x256x128 (ix3 r j d))
    (broadcastTo S64x256x128 w broadcasts_S1x256x128_S64x256x128 (ix3 r j d)) = _
  rw [broadcastTo_apply t broadcasts_S64x1x128_S64x256x128 (ix3 r j d) (ix3 r (0 : Fin 1) d)
      (fun c => by match c with | ⟨0, _⟩ => rfl | ⟨1, _⟩ => rfl | ⟨2, _⟩ => rfl),
    broadcastTo_apply w broadcasts_S1x256x128_S64x256x128 (ix3 r j d) (ix3 (0 : Fin 1) j d)
      (fun c => by match c with | ⟨0, _⟩ => rfl | ⟨1, _⟩ => rfl | ⟨2, _⟩ => rfl)]

/-- The total of an accumulator: its sum over the points and the coordinates. -/
theorem total_apply (acc : FVec Ideal S256x128 .f32) :
    total (F := Ideal) acc (ix2 (0 : Fin 1) (0 : Fin 1)) = ∑ d : Fin 128, ∑ j : Fin 256, acc (ix2 j d) := by
  unfold total
  refine (shapeCast_a_1a_apply _ shapeCasts_S1_S1x1 (0 : Fin 1) (0 : Fin 1)).trans ?_
  refine (Ideal.multiReduction_add_single _ _ reduces_S1x128_S1 _ _ (ix1 (0 : Fin 1))).trans ?_
  refine Finset.sum_congr rfl fun (d : Fin 128) _ => ?_
  have e : reduces_S1x128_S1.lift (ix1 (0 : Fin 1)) d = ix2 (0 : Fin 1) d :=
    funext fun c => Fin.ext (by match c with | ⟨0, _⟩ => rfl | ⟨1, _⟩ => rfl)
  rw [e]
  refine (shapeCast_a_1a_apply _ shapeCasts_S128_S1x128 (0 : Fin 1) d).trans ?_
  refine (Ideal.multiReduction_add_single _ _ reduces_S256x128_S128 _ _ (ix1 d)).trans ?_
  refine Finset.sum_congr rfl fun (j : Fin 256) _ => ?_
  exact congrArg acc (funext fun c => Fin.ext (by match c with | ⟨0, _⟩ => rfl | ⟨1, _⟩ => rfl))

/-- The combined block at lane `l`: the three totals' combination, whatever the lane. -/
theorem combine_apply (cr s1 s2 : FVec Ideal S1x1 .f32) (l : Fin 128) :
    combine (F := Ideal) cr s1 s2 (ix3 (0 : Fin 1) (0 : Fin 1) l)
      = cr (ix2 (0 : Fin 1) (0 : Fin 1)) * scale
        - half * (s1 (ix2 (0 : Fin 1) (0 : Fin 1)) * scale + s2 (ix2 (0 : Fin 1) (0 : Fin 1)) * scale) := by
  unfold combine
  refine (shapeCast_ab_1ab_apply _ shapeCasts_S1x128_S1x1x128 (0 : Fin 1) (0 : Fin 1) l).trans ?_
  refine (broadcastTo_apply _ broadcasts_S1x1_S1x128 (ix2 (0 : Fin 1) l) (ix2 (0 : Fin 1) (0 : Fin 1))
    (fun c => by match c with | ⟨0, _⟩ => rfl | ⟨1, _⟩ => rfl)).trans ?_
  rw [shapeCast_self]
  rfl

/-- A pairwise total is the tiled pairwise sum of the clouds its loads read. -/
theorem pairTotal_apply (w : FVec Ideal S256x128 .f32) (c0 c1 c2 c3 : FVec Ideal S1x64x128 .f32) (A B : Cloud)
    (h0 : ∀ r d, c0 (ix3 (0 : Fin 1) r d) = A (tileRow 0 r) d) (h1 : ∀ r d, c1 (ix3 (0 : Fin 1) r d) = A (tileRow 1 r) d)
    (h2 : ∀ r d, c2 (ix3 (0 : Fin 1) r d) = A (tileRow 2 r) d) (h3 : ∀ r d, c3 (ix3 (0 : Fin 1) r d) = A (tileRow 3 r) d)
    (hw : ∀ j d, w (ix2 j d) = B j d) :
    pairTotal (F := Ideal) w c0 c1 c2 c3 (ix2 (0 : Fin 1) (0 : Fin 1)) = tiledPairSum A B := by
  unfold pairTotal tiledPairSum
  refine (total_apply _).trans ?_
  refine Finset.sum_congr rfl fun d _ => Finset.sum_congr rfl fun j _ => ?_
  show ((((Ideal.ofBits .f32 0x00000000#32 + tile (F := Ideal) (rows c0) (pts w) (ix2 j d)) + tile (F := Ideal) (rows c1) (pts w) (ix2 j d))
    + tile (F := Ideal) (rows c2) (pts w) (ix2 j d)) + tile (F := Ideal) (rows c3) (pts w) (ix2 j d)) = _
  rw [Ideal.ofBits_zero_f32, tile_apply, tile_apply, tile_apply, tile_apply]
  unfold tileSum
  simp only [rows_apply, pts_apply, h0, h1, h2, h3, hw]

/-- The stored block, at every lane, is the energy distance of the two clouds the loads read. -/
theorem blockOf_apply (a b : FVec Ideal S1x256x128 .f32) (a0 a1 a2 a3 b0 b1 b2 b3 : FVec Ideal S1x64x128 .f32) (A B : Cloud)
    (ha : ∀ i d, a (ix3 (0 : Fin 1) i d) = A i d) (hb : ∀ j d, b (ix3 (0 : Fin 1) j d) = B j d)
    (ha0 : ∀ r d, a0 (ix3 (0 : Fin 1) r d) = A (tileRow 0 r) d) (ha1 : ∀ r d, a1 (ix3 (0 : Fin 1) r d) = A (tileRow 1 r) d)
    (ha2 : ∀ r d, a2 (ix3 (0 : Fin 1) r d) = A (tileRow 2 r) d) (ha3 : ∀ r d, a3 (ix3 (0 : Fin 1) r d) = A (tileRow 3 r) d)
    (hb0 : ∀ r d, b0 (ix3 (0 : Fin 1) r d) = B (tileRow 0 r) d) (hb1 : ∀ r d, b1 (ix3 (0 : Fin 1) r d) = B (tileRow 1 r) d)
    (hb2 : ∀ r d, b2 (ix3 (0 : Fin 1) r d) = B (tileRow 2 r) d) (hb3 : ∀ r d, b3 (ix3 (0 : Fin 1) r d) = B (tileRow 3 r) d)
    (l : Fin 128) :
    blockOf (F := Ideal) a b a0 a1 a2 a3 b0 b1 b2 b3 (ix3 (0 : Fin 1) (0 : Fin 1) l) = energy A B := by
  unfold blockOf
  rw [combine_apply,
    pairTotal_apply (whole b) a0 a1 a2 a3 A B ha0 ha1 ha2 ha3 (fun j d => (whole_apply b j d).trans (hb j d)),
    pairTotal_apply (whole b) b0 b1 b2 b3 B B hb0 hb1 hb2 hb3 (fun j d => (whole_apply b j d).trans (hb j d)),
    pairTotal_apply (whole a) a0 a1 a2 a3 A A ha0 ha1 ha2 ha3 (fun j d => (whole_apply a j d).trans (ha j d))]
  exact tiled_energy_eq A B

/-- A load of 64 rows from row `64 k` reads tile `k`'s rows. -/
theorem ld_tile (x : Vec Ideal S1x256x128 .f32) (o : Nat)
    (inb : ∀ a, (![0, o, 0] : Fin 3 → Nat) a + S1x64x128.size a ≤ S1x256x128.size a) (k : Fin 4) (ho : o = 64 * k.val)
    (r : Fin 64) (d : Fin 128) :
    View.ld (Val := Elt Ideal) (e' := .f32) x (Rect.unit (s := S1x256x128) ![0, o, 0] S1x64x128.size inb) (ix3 (0 : Fin 1) r d)
      = x (ix3 (0 : Fin 1) (tileRow k r) d) := by
  refine congrArg x (funext fun c => Fin.ext ?_)
  match c with
  | ⟨0, _⟩ => rfl
  | ⟨1, _⟩ =>
    show o + 1 * r.val = (tileRow k r).val
    rw [tileRow_val, ho]; omega
  | ⟨2, _⟩ =>
    show 0 + 1 * d.val = d.val
    omega

/-- The cloud a loaded [1,256,128] block holds. -/
def blockCloud (x : FVec Ideal S1x256x128 .f32) : Cloud := fun i d => x (ix3 (0 : Fin 1) i d)

/-- THE BODY'S VALUE: with the first input's block holding cloud `a` and the second's cloud `b`, every lane of the output
    block ends at the energy distance of `a` and `b`. -/
theorem out_apply (c : Dev nD) (i : grid0.Coords) (a1 : Memref sig .tc .vmem S1x256x128 .f32) (h1 : a1.IsWhole)
    (a2 : Memref sig .tc .vmem S1x256x128 .f32) (h2 : a2.IsWhole) (a3 : Memref sig .tc .vmem S1x1x128 .f32) (h3 : a3.IsWhole)
    (x0 x1 : Vec Ideal S1x256x128 .f32) (l : Fin 128) :
    out0_A_2 (F := Ideal) c i a1 h1 a2 h2 a3 h3 x0 x1 (ix3 (0 : Fin 1) (0 : Fin 1) l) = energy (blockCloud x0) (blockCloud x1) := by
  rw [out_eq (F := Ideal) c i a1 h1 a2 h2 a3 h3 x0 x1 (by decide) (by decide) (by decide) (by decide)]
  exact blockOf_apply x0 x1 _ _ _ _ _ _ _ _ (blockCloud x0) (blockCloud x1) (fun _ _ => rfl) (fun _ _ => rfl)
    (ld_tile x0 0 _ 0 rfl) (ld_tile x0 64 _ 1 rfl) (ld_tile x0 128 _ 2 rfl) (ld_tile x0 192 _ 3 rfl)
    (ld_tile x1 0 _ 0 rfl) (ld_tile x1 64 _ 1 rfl) (ld_tile x1 128 _ 2 rfl) (ld_tile x1 192 _ 3 rfl) l

end Cert.KernelIdeal.BodyValue

end
-- ==== Proof.EnergyKernel.lean ====
/-
  The idealized kernel's run, read: its result array ends at the sixteen energy distances (EnergySpec) of the
  argument arrays' batches, the arguments unchanged.

  Grid point `t` is batch `t`: the two input windows' blocks there are batch `t` of the two arguments, whole
  (256 points, 128 coordinates), and the output window's block is row `t` of the [16,1,128] output array. By the
  body's value every lane of that row ends at the batch's energy distance; the sixteen rows tile the array; and the
  two host lines after the call — the slice that keeps lane 0 and the reshape to [16] — read the distance back.
-/
import proofs.«110861_j30021821399466_2_alg».proof.Proof.EnergyBody
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.Tactic Idealize.ShloMosaic.StableHlo Cert.EnergySpec Cert.KernelIdeal.BodyValue
open Idealize.ShloMosaic.Pipeline (Dat)

variable (m : (ℓ : Loc nD τ sig) → Buf (Elt Ideal) ℓ) (ρ : Dev nD → PrngReg)

/-- The output array [16,1,128] after the call: row `g` holds, at every lane, the energy distance of batch `g`. -/
def outArr (c : Dev nD) : S16x1x128.Idx → EReal :=
  fun i => energy (cloud (V m c main_arg0) (i 0)) (cloud (V m c main_arg1) (i 0))

/-- The printed index maps, decided over the grid: each window's block index on the batch axis is the output's, the other
    two are zero, and the output's stays below 16. -/
theorem idx_facts : ∀ t : Fin cfg0.N, win0_0.index t (0 : Fin 3) = win0_2.index t (0 : Fin 3)
    ∧ win0_0.index t (1 : Fin 3) = 0 ∧ win0_0.index t (2 : Fin 3) = 0
    ∧ win0_1.index t (0 : Fin 3) = win0_2.index t (0 : Fin 3)
    ∧ win0_1.index t (1 : Fin 3) = 0 ∧ win0_1.index t (2 : Fin 3) = 0
    ∧ win0_2.index t (1 : Fin 3) = 0 ∧ win0_2.index t (2 : Fin 3) = 0
    ∧ win0_2.index t (0 : Fin 3) < 16 :=
  (by decide +kernel : ∀ t : Fin grid0.N, _)

/-- Every batch is some point's. -/
theorem idx_onto : ∀ g : Fin 16, ∃ t : Fin cfg0.N, win0_2.index t (0 : Fin 3) = g.val :=
  (by decide +kernel : ∀ g : Fin 16, ∃ t : Fin grid0.N, win0_2.index t (0 : Fin 3) = g.val)

/-- The first input window's block at point `t` is the first argument's batch. -/
theorem iblk0_cloud (c : Dev nD) (t : Fin cfg0.N) (g : Fin 16) (hg : g.val = win0_2.index t (0 : Fin 3)) :
    blockCloud (iblk m c 0 t) = cloud (V m c main_arg0) g := by
  obtain ⟨e0, e1, e2, -⟩ := idx_facts t
  funext i d
  show iblk m c 0 t (ix3 (0 : Fin 1) i d) = V m c main_arg0 (ix3 g i d)
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = g.val; omega
  | ⟨1, _⟩ => show win0_0.index t (1 : Fin 3) * 256 + 1 * i.val = i.val; omega
  | ⟨2, _⟩ => show win0_0.index t (2 : Fin 3) * 128 + 1 * d.val = d.val; omega

/-- The second input window's block at point `t` is the second argument's batch. -/
theorem iblk1_cloud (c : Dev nD) (t : Fin cfg0.N) (g : Fin 16) (hg : g.val = win0_2.index t (0 : Fin 3)) :
    blockCloud (iblk m c 1 t) = cloud (V m c main_arg1) g := by
  obtain ⟨-, -, -, e0, e1, e2, -⟩ := idx_facts t
  funext i d
  show iblk m c 1 t (ix3 (0 : Fin 1) i d) = V m c main_arg1 (ix3 g i d)
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * 0 = g.val; omega
  | ⟨1, _⟩ => show win0_1.index t (1 : Fin 3) * 256 + 1 * i.val = i.val; omega
  | ⟨2, _⟩ => show win0_1.index t (2 : Fin 3) * 128 + 1 * d.val = d.val; omega

/-- An index of the output block is lane `l` of its one row. -/
theorem idx_lane (y : S1x1x128.Idx) : y = ix3 (0 : Fin 1) (0 : Fin 1) (y 2) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

/-- WHAT POINT `t` WRITES BACK is block `t` of the output array: the body's value at the point's input blocks, which are
    the arguments' batch `t`. -/
theorem flushed_eq (c : Dev nD) (t : Fin cfg0.N) :
    (dats m 0 c).flushed 2 t = ((cfg0.win 2).blk t).view.read (Elt Ideal) (outArr m c) := by
  show (cfg0.win 2).cut (grid0.coords t) ((dats m 0 c).after 2 t) = _
  rw [after0_2]
  unfold outsAt0
  funext y
  obtain ⟨l, rfl⟩ : ∃ l : Fin 128, y = ix3 (0 : Fin 1) (0 : Fin 1) l := ⟨y 2, idx_lane y⟩
  show out0_A_2 c (grid0.coords t) (ms0_0 t) (hs0_0 t) (ms0_1 t) (hs0_1 t) (ms0_2 t) (hs0_2 t) (iblk m c 0 t) (iblk m c 1 t)
      (ix3 (0 : Fin 1) (0 : Fin 1) l)
    = outArr m c (((cfg0.win 2).blk t).view.emb (ix3 (0 : Fin 1) (0 : Fin 1) l))
  refine (out_apply c (grid0.coords t) (ms0_0 t) (hs0_0 t) (ms0_1 t) (hs0_1 t) (ms0_2 t) (hs0_2 t) (iblk m c 0 t) (iblk m c 1 t) l).trans ?_
  have hg : ((((cfg0.win 2).blk t).view.emb (ix3 (0 : Fin 1) (0 : Fin 1) l)) 0).val = win0_2.index t (0 : Fin 3) := by
    show win0_2.index t (0 : Fin 3) * 1 + 1 * 0 = _
    omega
  show _ = energy (cloud (V m c main_arg0) ((((cfg0.win 2).blk t).view.emb (ix3 (0 : Fin 1) (0 : Fin 1) l)) 0))
    (cloud (V m c main_arg1) ((((cfg0.win 2).blk t).view.emb (ix3 (0 : Fin 1) (0 : Fin 1) l)) 0))
  rw [iblk0_cloud m c t _ hg, iblk1_cloud m c t _ hg]

/-- An index of the output array is in point `t`'s block iff each coordinate is in the block's range on its axis. -/
theorem mem_blk (t : Fin cfg0.N) (i : S16x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v0).slice (win0_2.rect t)).set ↔ _
  rw [View.set_slice_whole, Rect.mem_set_unit]
  exact Iff.rfl

/-- The sixteen blocks tile the output array: row `g` is in the block of the point whose batch is `g`. -/
theorem cover (i : S16x1x128.Idx) :
    ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 128 := (i 2).isLt
  obtain ⟨t, ht⟩ := idx_onto ⟨(i 0).val, h0⟩
  have ht' : win0_2.index t (0 : Fin 3) = (i 0).val := ht
  obtain ⟨-, -, -, -, -, -, e1, e2, -⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 128 ≤ (i 2).val ∧ (i 2).val < win0_2.index t (2 : Fin 3) * 128 + 128
    omega

/-- THE OUTPUT ARRAY after the call. -/
theorem final (c : Dev nD) : (dats m 0 c).arrAt 2 cfg0.N = outArr m c :=
  (dats m 0 c).arrAt_eq_of_cover 2 (outArr m c) (fun t _ => flushed_eq m c t) cover

/-- Any index of row `g` of the output array reads batch `g`'s energy distance (the arguments as the call finds them are the
    arguments as launched: no host line precedes the call). -/
theorem out_row (c : Dev nD) (i : S16x1x128.Idx) (g : Fin 16) (h : (i 0).val = g.val) :
    outArr m c i = energies (m ((c : Thread nD τ).loc main_arg0)) (m ((c : Thread nD τ).loc main_arg1)) (ix1 g) := by
  have e : i 0 = g := Fin.ext h
  show energy (cloud (V m c main_arg0) (i 0)) (cloud (V m c main_arg1) (i 0))
    = energy (cloud (m ((c : Thread nD τ).loc main_arg0)) g) (cloud (m ((c : Thread nD τ).loc main_arg1)) g)
  rw [e]
  rfl

/-- The two host lines after the call — lane 0 of every row, then the [16,1,1] array as [16] — read the output array's
    row `g` at batch `g`: the result is the sixteen energy distances of the arguments. -/
theorem tail_eq (c : Dev nD) :
    Pipeline.afterTail₀ cfgs (dats m) 0 (V0 m) [hostOps1] c main_v2
      = energies (m ((c : Thread nD τ).loc main_arg0)) (m ((c : Thread nD τ).loc main_arg1)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v0)
      = outArr m c :=
    (Pipeline.withArrays_arr spec0 launch0.win.arr_inj c _ _ 2).trans (final m c)
  rw [hw]
  funext q
  obtain ⟨g, rfl⟩ : ∃ g : Fin 16, q = ix1 g := ⟨q 0, eq_ix1 q⟩
  show shapeCast S16 (extractStridedSlice S16x1x1 ![0, 0, 0] (outArr m c) slices_S16x1x128_S16x1x1_0_0_0) shapeCasts_S16x1x1_S16 (ix1 g) = _
  refine (shapeCast_apply _ shapeCasts_S16x1x1_S16 (ix1 g) (ix3 g (0 : Fin 1) (0 : Fin 1)) ?_).trans ?_
  · rw [Shape.rowMajor_val_three, Shape.rowMajor_val_one]
    show (g.val * 1 + 0) * 1 + 0 = g.val
    omega
  unfold extractStridedSlice
  refine out_row m c _ g ?_
  show 0 + g.val = g.val
  omega

/-- THE RUN, READ: every weakly fair execution of the idealized kernel's @main terminates with the result at the sixteen
    energy distances of the argument arrays, and the arguments as they were. -/
theorem run : θ_run defs (onTc (τ := τ) (main (F := Ideal))) ⟨m, fun _ => 0, ρ⟩ fun r => ∀ c : Dev nD,
      r.2.mem ((c.tc : Thread nD τ).loc main_v2)
        = energies (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KernelValue

end
-- ==== Proof.lean ====
/-
  The certificate of the energy-distance kernel against its reference (the proof of `Cert.Claim`).

  Both programs take two arrays of sixteen batches of 256 points in 128 coordinates and return, per batch, the energy
  distance of the batch's two clouds: the mean over all pairs (point of the first, point of the second) of the L1
  distance, less half the sum of the two clouds' own mean pairwise distances. The reference sums `|aᵢ_d - bⱼ_d|` over
  the coordinate, then over both point axes, and divides by 65536; the kernel, at one batch per grid point, sums over
  the rows of four row tiles, adds the tiles, sums over the other cloud's points and then over the coordinate, and
  multiplies by 2⁻¹⁶. On the extended reals addition is commutative and associative, so the two orders give one number
  (EnergySpec `tiledPairSum_eq`), and a quotient by 65536 is the product with 2⁻¹⁶ at the infinities too
  (`div_eq_mul_scale`): no finiteness of the inputs is used.

  * the three frames: the two kernels' are the generated frame certificates; the reference's is its generated run with
    the result dropped;
  * `preserves`: the idealization rewrote nothing;
  * `algebraic`: the kernel's run read (EnergyKernel `run`: the generated frame run, the body's value EnergyBody, the
    blocks tiling the output array, the two host lines after the call) and the reference's generated run read index by
    index (EnergyRef `result_eq`) end at the same array, `EnergySpec.energies` of the arguments.
-/
import proofs.«110861_j30021821399466_2_alg».proof.Defs
import proofs.«110861_j30021821399466_2_alg».proof.Proof.Gen.Kernel
import proofs.«110861_j30021821399466_2_alg».proof.Proof.Gen.Kernel.Skeleton
import proofs.«110861_j30021821399466_2_alg».proof.Proof.Gen.Kernel.Launch
import proofs.«110861_j30021821399466_2_alg».proof.Proof.Gen.Kernel.Points
import proofs.«110861_j30021821399466_2_alg».proof.Proof.Gen.Kernel.Frame
import proofs.«110861_j30021821399466_2_alg».proof.Proof.Gen.KernelIdeal
import proofs.«110861_j30021821399466_2_alg».proof.Proof.Gen.KernelIdeal.Skeleton
import proofs.«110861_j30021821399466_2_alg».proof.Proof.Gen.KernelIdeal.Launch
import proofs.«110861_j30021821399466_2_alg».proof.Proof.Gen.KernelIdeal.Points
import proofs.«110861_j30021821399466_2_alg».proof.Proof.Gen.KernelIdeal.Frame
import proofs.«110861_j30021821399466_2_alg».proof.Proof.Gen.ReferenceIdeal
import proofs.«110861_j30021821399466_2_alg».proof.Proof.Gen.Pre_finite_inputs
import proofs.«110861_j30021821399466_2_alg».proof.Proof.Gen.ReferenceIdeal.Run
import proofs.«110861_j30021821399466_2_alg».proof.Proof.Gen.ReferenceIdeal.Read
import proofs.«110861_j30021821399466_2_alg».proof.Proof.EnergySpec
import proofs.«110861_j30021821399466_2_alg».proof.Proof.EnergyRef
import proofs.«110861_j30021821399466_2_alg».proof.Proof.EnergyBody
import proofs.«110861_j30021821399466_2_alg».proof.Proof.EnergyKernel
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel's result array and the reference's, from memories that agree on the arguments, both
    end at the sixteen energy distances of the arguments' batches. -/
theorem algebraic : Cert.algebraic_KernelIdeal_ReferenceIdeal := by
  intro m ρ m' ρ' _ hagree
  refine ⟨fun c => Cert.EnergySpec.energies
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v33_eq, Cert.ReferenceIdeal.RefValue.result_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
